-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x20 : Shape := ⟨2, ![65536, 20]⟩
abbrev S65536x32 : Shape := ⟨2, ![65536, 32]⟩
abbrev S1024x20 : Shape := ⟨2, ![1024, 20]⟩
abbrev S_ : Shape := ⟨0, ![]⟩

class Facts : Prop where
  bcast_S_S65536x20 : S_.BroadcastsInDim S65536x20 (![] : Fin 0 → Fin S65536x20.rank)
  reducesTo_S65536x20_S_d0_1 : S65536x20.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S1024x20 : S_.BroadcastsInDim S1024x20 (![] : Fin 0 → Fin S1024x20.rank)
  reducesTo_S1024x20_S_d0_1 : S1024x20.ReducesTo [0, 1] S_

variable [Facts]

def fn {F : FTy → Type} [FloatOps F] (main_arg0 : FVec F S65536x20 .f32) (main_arg1 : FVec F S65536x32 .f32) (main_arg2 : FVec F S1024x20 .f32) : IVec S_ 1 :=
  let main_v0 : FVec F S65536x20 .f32 := Host.absf main_arg0
  let main_cst : FVec F S_ .f32 := constant S_ .f32 0x7F800000#32
  let main_v1 : FVec F S65536x20 .f32 := broadcastInDim S65536x20 ![] bcast_S_S65536x20 main_cst
  let main_v2 : IVec S65536x20 1 := cmpf .olt main_v0 main_v1
  let main_c : IVec S_ 1 := constantI S_ 1 1#1
  let main_v3 : IVec S_ 1 := (fun x v => Host.reduce IntOp.andi x v reducesTo_S65536x20_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S1024x20 .f32 := Host.absf main_arg2
  let main_cst_2 : FVec F S_ .f32 := constant S_ .f32 0x7F800000#32
  let main_v10 : FVec F S1024x20 .f32 := broadcastInDim S1024x20 ![] bcast_S_S1024x20 main_cst_2
  let main_v11 : IVec S1024x20 1 := cmpf .olt main_v9 main_v10
  let main_c_3 : IVec S_ 1 := constantI S_ 1 1#1
  let main_v12 : IVec S_ 1 := (fun x v => Host.reduce IntOp.andi x v reducesTo_S1024x20_S_d0_1 h_S_) main_v11 main_c_3
  let main_v13 : IVec S_ 1 := andi main_v8 main_v12
  main_v13
-- ==== Kernel.lean ====
abbrev S65536x20 : Shape := ⟨2, ![65536, 20]⟩
abbrev S65536x32 : Shape := ⟨2, ![65536, 32]⟩
abbrev S1024x20 : Shape := ⟨2, ![1024, 20]⟩
abbrev S1024x32 : Shape := ⟨2, ![1024, 32]⟩
abbrev S4096x20 : Shape := ⟨2, ![4096, 20]⟩
abbrev S4096x32 : Shape := ⟨2, ![4096, 32]⟩
abbrev S1024x1 : Shape := ⟨2, ![1024, 1]⟩
abbrev S1024x33 : Shape := ⟨2, ![1024, 33]⟩
abbrev S4096x1 : Shape := ⟨2, ![4096, 1]⟩
abbrev S4096x33 : Shape := ⟨2, ![4096, 33]⟩
abbrev S1024x4096 : Shape := ⟨2, ![1024, 4096]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S65536x20, .f32⟩
  | .hbm, ⟨1, _⟩ => ⟨S65536x32, .f32⟩
  | .hbm, ⟨2, _⟩ => ⟨S1024x20, .f32⟩
  | .hbm, ⟨3, _⟩ => ⟨S1024x32, .f32⟩
  | .local _ .vmem, ⟨0, _⟩ => ⟨S1024x20, .f32⟩
  | .local _ .vmem, ⟨1, _⟩ => ⟨S4096x20, .f32⟩
  | .local _ .vmem, ⟨2, _⟩ => ⟨S4096x20, .f32⟩
  | .local _ .vmem, ⟨3, _⟩ => ⟨S4096x32, .f32⟩
  | .local _ .vmem, ⟨4, _⟩ => ⟨S4096x32, .f32⟩
  | .local _ .vmem, ⟨5, _⟩ => ⟨S1024x32, .f32⟩
  | .local _ .vmem, ⟨6, _⟩ => ⟨S1024x1, .f32⟩
  | .local _ .vmem, ⟨7, _⟩ => ⟨S1024x33, .f32⟩
  | _, _ => ⟨S65536x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x33_S1024x33_0_0 : ∀ a, (![0, 0] : Fin 2 → Nat) a + S1024x33.size a ≤ S1024x33.size a
  h_S1024x33 : 0 < S1024x33.numel
  shapeCasts_S1024x33_S1024x33 : S1024x33.ShapeCasts S1024x33
  inb_S1024x20_S1024x20_0_0 : ∀ a, (![0, 0] : Fin 2 → Nat) a + S1024x20.size a ≤ S1024x20.size a
  h_S1024x20 : 0 < S1024x20.numel
  bitsLt_bf16_f32 : FTy.bits .bf16 < FTy.bits .f32
  inb_S4096x20_S4096x20_0_0 : ∀ a, (![0, 0] : Fin 2 → Nat) a + S4096x20.size a ≤ S4096x20.size a
  h_S4096x20 : 0 < S4096x20.numel
  inb_S4096x32_S4096x32_0_0 : ∀ a, (![0, 0] : Fin 2 → Nat) a + S4096x32.size a ≤ S4096x32.size a
  h_S4096x32 : 0 < S4096x32.numel
  concatenates_S4096x32_S4096x1_S4096x33_d1 : Shape.Concatenates [S4096x32, S4096x1] S4096x33 1
  reduces_S1024x4096_S1024 : S1024x4096.Reduces [1] S1024
  shapeCasts_S1024_S1024x1 : S1024.ShapeCasts S1024x1
  broadcasts_S1024x1_S1024x4096 : S1024x1.Broadcasts S1024x4096
  broadcasts_S1024x1_S1024x33 : S1024x1.Broadcasts S1024x33
  slices_S1024x33_o0_0_S1024x32 : S1024x33.Slices ![0, 0] S1024x32
  slices_S1024x33_o0_32_S1024x1 : S1024x33.Slices ![0, 32] S1024x1
  broadcasts_S1024x1_S1024x32 : S1024x1.Broadcasts S1024x32
  inb_S1024x32_S1024x32_0_0 : ∀ a, (![0, 0] : Fin 2 → Nat) a + S1024x32.size a ≤ S1024x32.size a
  h_S1024x32 : 0 < S1024x32.numel
  dot_S1024x20_S4096x20_S1024x4096_1_1_0_0_n_n_wf : DotDims.WF S1024x20 S4096x20 S1024x4096 [1] [1] [0] [0] [] []
  dot_S1024x4096_S4096x33_S1024x33_1_0_0_1_n_n_wf : DotDims.WF S1024x4096 S4096x33 S1024x33 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x20.size a ≤ S1024x20.size a
  hwx0_0 : ∀ i : grid0.Coords, EltTy.bits .f32 = 32 ∨ (Rect.block (s := S1024x20) S1024x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x20.size a ≤ S65536x20.size a
  hwx0_1 : ∀ i : grid0.Coords, EltTy.bits .f32 = 32 ∨ (Rect.block (s := S65536x20) S4096x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S65536x32.size a
  hwx0_2 : ∀ i : grid0.Coords, EltTy.bits .f32 = 32 ∨ (Rect.block (s := S65536x32) S4096x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .f32 = 32 ∨ (Rect.block (s := S1024x32) S1024x32.size (cc0_transform_3 i) (hinb0_3 i)).WholeWords (EltTy.packing .f32)

variable [Facts₀]

def dot_S1024x20_S4096x20_S1024x4096_1_1_0_0_n_n : DotDims S1024x20 S4096x20 S1024x4096 where
  lhsContracting := [1]
  rhsContracting := [1]
  lhsNonContracting := [0]
  rhsNonContracting := [0]
  lhsBatch := []
  rhsBatch := []
  wf := dot_S1024x20_S4096x20_S1024x4096_1_1_0_0_n_n_wf
def dot_S1024x4096_S4096x33_S1024x33_1_0_0_1_n_n : DotDims S1024x4096 S4096x33 S1024x33 where
  lhsContracting := [1]
  rhsContracting := [0]
  lhsNonContracting := [0]
  rhsNonContracting := [1]
  lhsBatch := []
  rhsBatch := []
  wf := dot_S1024x4096_S4096x33_S1024x33_1_0_0_1_n_n_wf

abbrev win0_0 : Pipeline.Window sig grid0 :=
  Pipeline.Window.ofSpec (Memref.whole main_arg2) S1024x20.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x20 : Shape := ⟨2, ![65536, 20]⟩
abbrev S65536x32 : Shape := ⟨2, ![65536, 32]⟩
abbrev S1024x20 : Shape := ⟨2, ![1024, 20]⟩
abbrev S20x65536 : Shape := ⟨2, ![20, 65536]⟩
abbrev S1024x65536 : Shape := ⟨2, ![1024, 65536]⟩
abbrev S_ : Shape := ⟨0, ![]⟩
abbrev S1024 : Shape := ⟨1, ![1024]⟩
abbrev S1024x1 : Shape := ⟨2, ![1024, 1]⟩
abbrev S1024x32 : Shape := ⟨2, ![1024, 32]⟩

abbrev nBuf : Space → Nat
  | .hbm => 23
  | .vmem => 0
  | .smem => 0
  | _ => 0

abbrev bufTy : (tb : Table) → Fin (tcTables nBuf tb) → BufTy
  | .hbm, ⟨0, _⟩ => ⟨S65536x20, .f32⟩
  | .hbm, ⟨1, _⟩ => ⟨S65536x32, .f32⟩
  | .hbm, ⟨2, _⟩ => ⟨S1024x20, .f32⟩
  | .hbm, ⟨3, _⟩ => ⟨S20x65536, .f32⟩
  | .hbm, ⟨4, _⟩ => ⟨S1024x65536, .f32⟩
  | .hbm, ⟨5, _⟩ => ⟨S_, .f32⟩
  | .hbm, ⟨6, _⟩ => ⟨S1024x65536, .f32⟩
  | .hbm, ⟨7, _⟩ => ⟨S1024x65536, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1024x65536, .f32⟩
  | .hbm, ⟨15, _⟩ => ⟨S1024x65536, .f32⟩
  | .hbm, ⟨16, _⟩ => ⟨S1024x65536, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x65536, .f32⟩
  | .hbm, ⟨21, _⟩ => ⟨S1024x65536, .f32⟩
  | .hbm, ⟨22, _⟩ => ⟨S1024x32, .f32⟩
  | _, _ => ⟨S65536x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S65536x20_S20x65536_1_0 : S65536x20.Transposes [1, 0] S20x65536
  bcast_S_S1024x65536 : S_.BroadcastsInDim S1024x65536 (![] : Fin 0 → Fin S1024x65536.rank)
  reducesTo_S1024x65536_S1024_d1 : S1024x65536.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x65536_0_1 : S1024x1.BroadcastsInDim S1024x65536 (![0, 1] : Fin 2 → Fin S1024x65536.rank)
  dot_S1024x20_S20x65536_S1024x65536_1_0_0_1_n_n_wf : DotDims.WF S1024x20 S20x65536 S1024x65536 [1] [0] [0] [1] [] []
  dot_S1024x65536_S65536x32_S1024x32_1_0_0_1_n_n_wf : DotDims.WF S1024x65536 S65536x32 S1024x32 [1] [0] [0] [1] [] []

variable [Facts₀]

def dot_S1024x20_S20x65536_S1024x65536_1_0_0_1_n_n : DotDims S1024x20 S20x65536 S1024x65536 where
  lhsContracting := [1]
  rhsContracting := [0]
  lhsNonContracting := [0]
  rhsNonContracting := [1]
  lhsBatch := []
  rhsBatch := []
  wf := dot_S1024x20_S20x65536_S1024x65536_1_0_0_1_n_n_wf
def dot_S1024x65536_S65536x32_S1024x32_1_0_0_1_n_n : DotDims S1024x65536 S65536x32 S1024x32 where
  lhsContracting := [1]
  rhsContracting := [0]
  lhsNonContracting := [0]
  rhsNonContracting := [1]
  lhsBatch := []
  rhsBatch := []
  wf := dot_S1024x65536_S65536x32_S1024x32_1_0_0_1_n_n_wf

class Facts : Prop extends Facts₀ where

variable [Facts]
-- ==== Proof.Pieces.lean ====
/-
  What one grid point leaves in the two carried buffers and in the output block, as the body's stored values.

  The body keeps a running row maximum m (a [1024, 1] column) and an accumulator acc ([1024, 33]). At the first point
  both are first reset (m to -inf, acc to 0) and then updated; at every other point they are updated from what the point
  before left; at the last point the output block is acc's first 32 columns divided by its last column. Each buffer
  is stored whole, so what a point leaves in it is the value of its last store, a function of the input blocks and of
  the buffers' previous contents.
-/
import proofs.«175783_g62380105007505_cont_9to1_m_337_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point, the running maximum: the update applied to the reset value. -/
theorem first_max (c : Dev nD) (i : grid0.Coords) (a1 : Memref sig .tc .vmem S1024x20 .f32) (h1 : a1.IsWhole)
    (a2 : Memref sig .tc .vmem S4096x20 .f32) (h2 : a2.IsWhole) (a3 : Memref sig .tc .vmem S4096x32 .f32) (h3 : a3.IsWhole)
    (a4 : Memref sig .tc .vmem S1024x32 .f32) (h4 : a4.IsWhole) (a5 : Memref sig .tc .vmem S1024x1 .f32) (h5 : a5.IsWhole)
    (a6 : Memref sig .tc .vmem S1024x33 .f32) (h6 : a6.IsWhole) (hc0 : cond0_0 i) (hc1 : ¬cond0_1 i)
    (x0 : Vec F S1024x20 .f32) (x1 : Vec F S4096x20 .f32) (x2 : Vec F S4096x32 .f32) :
    sout0_A_0 c i a1 h1 a2 h2 a3 h3 a4 h4 a5 h5 a6 h6 hc0 hc1 x0 x1 x2 = k0_pay6 x0 x1 (k0_pay2 (F := F)) := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1024x1) hz, View.readCov_unit_zero (S := S1024x1) _ hz]
  simp only [View.readAt_eq_ld, h1.read_unread, h2.read_unread, h3.read_unread, h5.read_unread, h6.read_unread,
    View.ld_unit_zero (S := S1024x20) hz, View.ld_unit_zero (S := S4096x20) hz, View.ld_unit_zero (S := S4096x32) hz,
    View.ld_unit_zero (S := S1024x1) hz, View.ld_unit_zero (S := S1024x33) hz]

/-- First point, the accumulator: the update applied to the two reset values. -/
theorem first_acc (c : Dev nD) (i : grid0.Coords) (a1 : Memref sig .tc .vmem S1024x20 .f32) (h1 : a1.IsWhole)
    (a2 : Memref sig .tc .vmem S4096x20 .f32) (h2 : a2.IsWhole) (a3 : Memref sig .tc .vmem S4096x32 .f32) (h3 : a3.IsWhole)
    (a4 : Memref sig .tc .vmem S1024x32 .f32) (h4 : a4.IsWhole) (a5 : Memref sig .tc .vmem S1024x1 .f32) (h5 : a5.IsWhole)
    (a6 : Memref sig .tc .vmem S1024x33 .f32) (h6 : a6.IsWhole) (hc0 : cond0_0 i) (hc1 : ¬cond0_1 i)
    (x0 : Vec F S1024x20 .f32) (x1 : Vec F S4096x20 .f32) (x2 : Vec F S4096x32 .f32) :
    sout0_A_1 c i a1 h1 a2 h2 a3 h3 a4 h4 a5 h5 a6 h6 hc0 hc1 x0 x1 x2 = k0_pay7 x0 x1 x2 (k0_pay2 (F := F)) (k0_pay3 (F := F)) := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1024x33) hz, View.readCov_unit_zero (S := S1024x33) _ hz,
    View.readCov_unit_zero (S := S1024x1) _ hz]
  simp only [View.readAt_eq_ld, h1.read_unread, h2.read_unread, h3.read_unread, h5.read_unread, h6.read_unread,
    View.ld_unit_zero (S := S1024x20) hz, View.ld_unit_zero (S := S4096x20) hz, View.ld_unit_zero (S := S4096x32) hz,
    View.ld_unit_zero (S := S1024x1) hz, View.ld_unit_zero (S := S1024x33) hz]

/-- A middle point, the running maximum: the update applied to what the point before left. -/
theorem mid_max (c : Dev nD) (i : grid0.Coords) (a1 : Memref sig .tc .vmem S1024x20 .f32) (h1 : a1.IsWhole)
    (a2 : Memref sig .tc .vmem S4096x20 .f32) (h2 : a2.IsWhole) (a3 : Memref sig .tc .vmem S4096x32 .f32) (h3 : a3.IsWhole)
    (a4 : Memref sig .tc .vmem S1024x32 .f32) (h4 : a4.IsWhole) (a5 : Memref sig .tc .vmem S1024x1 .f32) (h5 : a5.IsWhole)
    (a6 : Memref sig .tc .vmem S1024x33 .f32) (h6 : a6.IsWhole) (hc0 : ¬cond0_0 i) (hc1 : ¬cond0_1 i)
    (x0 : Vec F S1024x20 .f32) (x1 : Vec F S4096x20 .f32) (x2 : Vec F S4096x32 .f32) (xs0 : Vec F S1024x1 .f32) (xs1 : Vec F S1024x33 .f32) :
    sout0_B_0 c i a1 h1 a2 h2 a3 h3 a4 h4 a5 h5 a6 h6 hc0 hc1 x0 x1 x2 xs0 xs1 = k0_pay6 x0 x1 xs0 := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  rw [View.canon_unit_zero hz]
  simp only [View.readAt_eq_ld, h1.read_unread, h2.read_unread, h3.read_unread, h5.read_unread, h6.read_unread,
    View.ld_unit_zero (S := S1024x20) hz, View.ld_unit_zero (S := S4096x20) hz, View.ld_unit_zero (S := S4096x32) hz,
    View.ld_unit_zero (S := S1024x1) hz, View.ld_unit_zero (S := S1024x33) hz]

/-- A middle point, the accumulator. -/
theorem mid_acc (c : Dev nD) (i : grid0.Coords) (a1 : Memref sig .tc .vmem S1024x20 .f32) (h1 : a1.IsWhole)
    (a2 : Memref sig .tc .vmem S4096x20 .f32) (h2 : a2.IsWhole) (a3 : Memref sig .tc .vmem S4096x32 .f32) (h3 : a3.IsWhole)
    (a4 : Memref sig .tc .vmem S1024x32 .f32) (h4 : a4.IsWhole) (a5 : Memref sig .tc .vmem S1024x1 .f32) (h5 : a5.IsWhole)
    (a6 : Memref sig .tc .vmem S1024x33 .f32) (h6 : a6.IsWhole) (hc0 : ¬cond0_0 i) (hc1 : ¬cond0_1 i)
    (x0 : Vec F S1024x20 .f32) (x1 : Vec F S4096x20 .f32) (x2 : Vec F S4096x32 .f32) (xs0 : Vec F S1024x1 .f32) (xs1 : Vec F S1024x33 .f32) :
    sout0_B_1 c i a1 h1 a2 h2 a3 h3 a4 h4 a5 h5 a6 h6 hc0 hc1 x0 x1 x2 xs0 xs1 = k0_pay7 x0 x1 x2 xs0 xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  rw [View.canon_unit_zero hz]
  simp only [View.readAt_eq_ld, h1.read_unread, h2.read_unread, h3.read_unread, h5.read_unread, h6.read_unread,
    View.ld_unit_zero (S := S1024x20) hz, View.ld_unit_zero (S := S4096x20) hz, View.ld_unit_zero (S := S4096x32) hz,
    View.ld_unit_zero (S := S1024x1) hz, View.ld_unit_zero (S := S1024x33) hz]

/-- The last point, the running maximum. -/
theorem last_max (c : Dev nD) (i : grid0.Coords) (a1 : Memref sig .tc .vmem S1024x20 .f32) (h1 : a1.IsWhole)
    (a2 : Memref sig .tc .vmem S4096x20 .f32) (h2 : a2.IsWhole) (a3 : Memref sig .tc .vmem S4096x32 .f32) (h3 : a3.IsWhole)
    (a4 : Memref sig .tc .vmem S1024x32 .f32) (h4 : a4.IsWhole) (a5 : Memref sig .tc .vmem S1024x1 .f32) (h5 : a5.IsWhole)
    (a6 : Memref sig .tc .vmem S1024x33 .f32) (h6 : a6.IsWhole) (hc0 : ¬cond0_0 i) (hc1 : cond0_1 i)
    (x0 : Vec F S1024x20 .f32) (x1 : Vec F S4096x20 .f32) (x2 : Vec F S4096x32 .f32) (xs0 : Vec F S1024x1 .f32) (xs1 : Vec F S1024x33 .f32) :
    sout0_C_0 c i a1 h1 a2 h2 a3 h3 a4 h4 a5 h5 a6 h6 hc0 hc1 x0 x1 x2 xs0 xs1 = k0_pay6 x0 x1 xs0 := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  rw [View.canon_unit_zero hz]
  simp only [View.readAt_eq_ld, h1.read_unread, h2.read_unread, h3.read_unread, h5.read_unread, h6.read_unread,
    View.ld_unit_zero (S := S1024x20) hz, View.ld_unit_zero (S := S4096x20) hz, View.ld_unit_zero (S := S4096x32) hz,
    View.ld_unit_zero (S := S1024x1) hz, View.ld_unit_zero (S := S1024x33) hz]

/-- The last point, the accumulator. -/
theorem last_acc (c : Dev nD) (i : grid0.Coords) (a1 : Memref sig .tc .vmem S1024x20 .f32) (h1 : a1.IsWhole)
    (a2 : Memref sig .tc .vmem S4096x20 .f32) (h2 : a2.IsWhole) (a3 : Memref sig .tc .vmem S4096x32 .f32) (h3 : a3.IsWhole)
    (a4 : Memref sig .tc .vmem S1024x32 .f32) (h4 : a4.IsWhole) (a5 : Memref sig .tc .vmem S1024x1 .f32) (h5 : a5.IsWhole)
    (a6 : Memref sig .tc .vmem S1024x33 .f32) (h6 : a6.IsWhole) (hc0 : ¬cond0_0 i) (hc1 : cond0_1 i)
    (x0 : Vec F S1024x20 .f32) (x1 : Vec F S4096x20 .f32) (x2 : Vec F S4096x32 .f32) (xs0 : Vec F S1024x1 .f32) (xs1 : Vec F S1024x33 .f32) :
    sout0_C_1 c i a1 h1 a2 h2 a3 h3 a4 h4 a5 h5 a6 h6 hc0 hc1 x0 x1 x2 xs0 xs1 = k0_pay7 x0 x1 x2 xs0 xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero hz]
  simp only [View.readAt_eq_ld, h1.read_unread, h2.read_unread, h3.read_unread, h5.read_unread, h6.read_unread,
    View.ld_unit_zero (S := S1024x20) hz, View.ld_unit_zero (S := S4096x20) hz, View.ld_unit_zero (S := S4096x32) hz,
    View.ld_unit_zero (S := S1024x1) hz, View.ld_unit_zero (S := S1024x33) hz]

/-- The last point, the output block: the quotient taken of the accumulator the point has just stored. -/
theorem last_out (c : Dev nD) (i : grid0.Coords) (a1 : Memref sig .tc .vmem S1024x20 .f32) (h1 : a1.IsWhole)
    (a2 : Memref sig .tc .vmem S4096x20 .f32) (h2 : a2.IsWhole) (a3 : Memref sig .tc .vmem S4096x32 .f32) (h3 : a3.IsWhole)
    (a4 : Memref sig .tc .vmem S1024x32 .f32) (h4 : a4.IsWhole) (a5 : Memref sig .tc .vmem S1024x1 .f32) (h5 : a5.IsWhole)
    (a6 : Memref sig .tc .vmem S1024x33 .f32) (h6 : a6.IsWhole) (hc0 : ¬cond0_0 i) (hc1 : cond0_1 i)
    (x0 : Vec F S1024x20 .f32) (x1 : Vec F S4096x20 .f32) (x2 : Vec F S4096x32 .f32) (xs0 : Vec F S1024x1 .f32) (xs1 : Vec F S1024x33 .f32) :
    out0_C_3 c i a1 h1 a2 h2 a3 h3 a4 h4 a5 h5 a6 h6 hc0 hc1 x0 x1 x2 xs0 xs1 = k0_pay1 (k0_pay7 x0 x1 x2 xs0 xs1) := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero hz, View.readCov_unit_zero (S := S1024x33) _ hz]
  simp only [View.readAt_eq_ld, h1.read_unread, h2.read_unread, h3.read_unread, h5.read_unread, h6.read_unread,
    View.ld_unit_zero (S := S1024x20) hz, View.ld_unit_zero (S := S4096x20) hz, View.ld_unit_zero (S := S4096x32) hz,
    View.ld_unit_zero (S := S1024x1) hz, View.ld_unit_zero (S := S1024x33) hz]

end Cert.KernelIdeal.Pieces

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayIdx.lean ====
/-
  The body's stored values read at an index, on the extended reals.

  With a the [1024, 20] query block, k the [4096, 20] key block, v the [4096, 32] value block, m the running maximum
  column and acc the [1024, 33] accumulator the point finds:
    s(q, r)    = Σ_d (a(q, d) · ten) · k(r, d)                        the scores of the block, ten the word 0x41200000;
    m'(q)      = max(m(q), max_r s(q, r))                             the new running maximum;
    acc'(q, e) = acc(q, e) · exp(m(q) - m'(q)) + Σ_r exp(s(q, r) - m'(q)) · v1(r, e)
  where v1 is v with a column of ones appended (column 32), and the output block is acc(q, e) / acc(q, 32) for e < 32.
-/
import proofs.«175783_g62380105007505_cont_9to1_m_337_7_alg».proof.Proof.Gen.KernelIdeal.Skeleton
import proofs.«175783_g62380105007505_cont_9to1_m_337_7_alg».proof.Proof.LibContract
import proofs.«175783_g62380105007505_cont_9to1_m_337_7_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-- The value block with a column of ones appended. -/
def withOnes (x2 : FVec Ideal S4096x32 .f32) : FVec Ideal S4096x33 .bf16 :=
  concatenate S4096x33 1 [⟨S4096x32, truncf .bf16 x2 bitsLt_bf16_f32⟩,
    ⟨S4096x1, broadcast S4096x1 (Scalar.ofBits (F := Ideal) .bf16 0x3F80#16)⟩] concatenates_S4096x32_S4096x1_S4096x33_d1

/-- Columns 0 … 31 of the extended block are the value block's. -/
theorem withOnes_left (x2 : FVec Ideal S4096x32 .f32) (r : Fin 4096) (e : Fin 33) (he : e.val < 32) :
    withOnes x2 (ix2 r e) = x2 (ix2 r ⟨e.val, he⟩) := by
  unfold withOnes
  refine (concatenate_pair_apply_left (t := S4096x33) (s₁ := S4096x32) (s₂ := S4096x1) (1 : Fin 2) _ _
    concatenates_S4096x32_S4096x1_S4096x33_d1 (ix2 r e) rfl (ix2 r (⟨e.val, he⟩ : Fin 32)) fun b => ?_).trans rfl
  match b with
  | ⟨0, _⟩ => rfl
  | ⟨1, _⟩ => rfl

/-- Column 32 of the extended block is the constant whose word is 0x3F80. -/
theorem withOnes_right (x2 : FVec Ideal S4096x32 .f32) (r : Fin 4096) (e : Fin 33) (he : e.val = 32) :
    withOnes x2 (ix2 r e) = Ideal.ofBits .bf16 0x3F80#16 := by
  unfold withOnes
  refine (concatenate_pair_apply_right (t := S4096x33) (s₁ := S4096x32) (s₂ := S4096x1) (1 : Fin 2) _ _
    concatenates_S4096x32_S4096x1_S4096x33_d1 (ix2 r e) rfl rfl (ix2 r (0 : Fin 1)) (fun b hb => ?_) ?_).trans rfl
  · match b with
    | ⟨0, _⟩ => rfl
    | ⟨1, _⟩ => exact absurd rfl hb
  · show 0 + 32 = e.val
    omega

/-! ## The two products' operand indices, coordinate by coordinate -/

theorem sc_lhs0 (i : S1024x4096.Idx) (p : dot_S1024x20_S4096x20_S1024x4096_1_1_0_0_n_n.contr.Idx) :
    (dot_S1024x20_S4096x20_S1024x4096_1_1_0_0_n_n.lhsIdx i p 0).val = (i 0).val := by
  unfold DotDims.lhsIdx
  rw [dif_neg (show ¬(0 : Fin S1024x20.rank) ∈ dot_S1024x20_S4096x20_S1024x4096_1_1_0_0_n_n.lhsBatch by decide),
    dif_pos (show (0 : Fin S1024x20.rank) ∈ dot_S1024x20_S4096x20_S1024x4096_1_1_0_0_n_n.lhsNonContracting by decide)]
  rfl
theorem sc_lhs1 (i : S1024x4096.Idx) (p : dot_S1024x20_S4096x20_S1024x4096_1_1_0_0_n_n.contr.Idx) :
    (dot_S1024x20_S4096x20_S1024x4096_1_1_0_0_n_n.lhsIdx i p 1).val = (p ⟨0, by decide⟩).val :=
  dot_S1024x20_S4096x20_S1024x4096_1_1_0_0_n_n.lhsIdx_val_of_single rfl i p
theorem sc_rhs0 (i : S1024x4096.Idx) (p : dot_S1024x20_S4096x20_S1024x4096_1_1_0_0_n_n.contr.Idx) :
    (dot_S1024x20_S4096x20_S1024x4096_1_1_0_0_n_n.rhsIdx i p 0).val = (i 1).val := by
  unfold DotDims.rhsIdx
  rw [dif_neg (show ¬(0 : Fin S4096x20.rank) ∈ dot_S1024x20_S4096x20_S1024x4096_1_1_0_0_n_n.rhsBatch by decide),
    dif_pos (show (0 : Fin S4096x20.rank) ∈ dot_S1024x20_S4096x20_S1024x4096_1_1_0_0_n_n.rhsNonContracting by decide)]
  rfl
theorem sc_rhs1 (i : S1024x4096.Idx) (p : dot_S1024x20_S4096x20_S1024x4096_1_1_0_0_n_n.contr.Idx) :
    (dot_S1024x20_S4096x20_S1024x4096_1_1_0_0_n_n.rhsIdx i p 1).val = (p ⟨0, by decide⟩).val :=
  dot_S1024x20_S4096x20_S1024x4096_1_1_0_0_n_n.rhsIdx_val_of_single rfl i p

theorem wt_lhs0 (i : S1024x33.Idx) (p : dot_S1024x4096_S4096x33_S1024x33_1_0_0_1_n_n.contr.Idx) :
    (dot_S1024x4096_S4096x33_S1024x33_1_0_0_1_n_n.lhsIdx i p 0).val = (i 0).val := by
  unfold DotDims.lhsIdx
  rw [dif_neg (show ¬(0 : Fin S1024x4096.rank) ∈ dot_S1024x4096_S4096x33_S1024x33_1_0_0_1_n_n.lhsBatch by decide),
    dif_pos (show (0 : Fin S1024x4096.rank) ∈ dot_S1024x4096_S4096x33_S1024x33_1_0_0_1_n_n.lhsNonContracting by decide)]
  rfl
theorem wt_lhs1 (i : S1024x33.Idx) (p : dot_S1024x4096_S4096x33_S1024x33_1_0_0_1_n_n.contr.Idx) :
    (dot_S1024x4096_S4096x33_S1024x33_1_0_0_1_n_n.lhsIdx i p 1).val = (p ⟨0, by decide⟩).val :=
  dot_S1024x4096_S4096x33_S1024x33_1_0_0_1_n_n.lhsIdx_val_of_single rfl i p
theorem wt_rhs0 (i : S1024x33.Idx) (p : dot_S1024x4096_S4096x33_S1024x33_1_0_0_1_n_n.contr.Idx) :
    (dot_S1024x4096_S4096x33_S1024x33_1_0_0_1_n_n.rhsIdx i p 0).val = (p ⟨0, by decide⟩).val :=
  dot_S1024x4096_S4096x33_S1024x33_1_0_0_1_n_n.rhsIdx_val_of_single rfl i p
theorem wt_rhs1 (i : S1024x33.Idx) (p : dot_S1024x4096_S4096x33_S1024x33_1_0_0_1_n_n.contr.Idx) :
    (dot_S1024x4096_S4096x33_S1024x33_1_0_0_1_n_n.rhsIdx i p 1).val = (i 1).val := by
  unfold DotDims.rhsIdx
  rw [dif_neg (show ¬(1 : Fin S4096x33.rank) ∈ dot_S1024x4096_S4096x33_S1024x33_1_0_0_1_n_n.rhsBatch by decide),
    dif_pos (show (1 : Fin S4096x33.rank) ∈ dot_S1024x4096_S4096x33_S1024x33_1_0_0_1_n_n.rhsNonContracting by decide)]
  rfl

/-- The scores of the block at (q, r). -/
theorem scores_apply (x0 : FVec Ideal S1024x20 .f32) (x1 : FVec Ideal S4096x20 .f32) (q : Fin 1024) (r : Fin 4096) :
    k0_pay4 (F := Ideal) x0 x1 (ix2 q r) = ∑ d : Fin 20, (x0 (ix2 q d) * Ideal.ofBits .f32 0x41200000#32) * x1 (ix2 r d) := by
  unfold k0_pay4
  refine (Cert.Lib.Contract.matmul_zero_single dot_S1024x20_S4096x20_S1024x4096_1_1_0_0_n_n none 20 rfl rfl _ _ (ix2 q r)
    (fun d => ix2 q d) (fun d => ix2 r d) (fun d p hp => ?_) (fun d p hp => ?_)).trans rfl
  · exact funext fun a => Fin.ext (by
      match a with
      | ⟨0, _⟩ => exact sc_lhs0 _ _
      | ⟨1, _⟩ => exact (sc_lhs1 _ _).trans hp)
  · exact funext fun a => Fin.ext (by
      match a with
      | ⟨0, _⟩ => exact sc_rhs0 _ _
      | ⟨1, _⟩ => exact (sc_rhs1 _ _).trans hp)

/-- The new running maximum at row q: the larger of the old one and the row's largest score, the fold starting at the
    word 0xFF800000. -/
theorem rowmax_apply (x0 : FVec Ideal S1024x20 .f32) (x1 : FVec Ideal S4096x20 .f32) (xs0 : FVec Ideal S1024x1 .f32)
    (q : Fin 1024) (u : Fin 1) :
    k0_pay5 (F := Ideal) x0 x1 xs0 (ix2 q u)
      = max (xs0 (ix2 q u)) ((Finset.univ : Finset (Fin 4096)).fold max (Ideal.ofBits .f32 0xFF800000#32)
          (fun r => k0_pay4 (F := Ideal) x0 x1 (ix2 q r))) := by
  unfold k0_pay5
  refine (maximumf_apply _ _ _).trans (congrArg (max (xs0 (ix2 q u))) ?_)
  refine (Cert.LibKeepdims.shapeCast_a_a1_apply _ shapeCasts_S1024_S1024x1 q u).trans ?_
  refine (Ideal.multiReduction_maximumf_single (k0_pay4 (F := Ideal) x0 x1) 0xFF800000#32 reduces_S1024x4096_S1024 (.inl rfl) rfl
    (ix1 q)).trans ?_
  refine congrArg (fun g => (Finset.univ : Finset (Fin 4096)).fold max _ g) (funext fun r => ?_)
  refine congrArg (k0_pay4 (F := Ideal) x0 x1) (funext fun a => Fin.ext ?_)
  match a with
  | ⟨0, _⟩ => rfl
  | ⟨1, _⟩ => rfl

/-- The stored maximum is the new running maximum (a cast to the same shape). -/
theorem stored_max {F : FTy → Type} [FloatOps F] (x0 : Vec F S1024x20 .f32) (x1 : Vec F S4096x20 .f32) (xs0 : Vec F S1024x1 .f32) :
    k0_pay6 x0 x1 xs0 = k0_pay5 x0 x1 xs0 := by
  unfold k0_pay6
  exact shapeCast_self _ _

/-- The second product, exp(s - m') against the extended value block, at (q, e). -/
theorem weighted_apply (p : FVec Ideal S1024x4096 .bf16) (w : FVec Ideal S4096x33 .bf16) (q : Fin 1024) (e : Fin 33) :
    matmul dot_S1024x4096_S4096x33_S1024x33_1_0_0_1_n_n none p w (constant S1024x33 .f32 0x00000000#32) (ix2 q e)
      = ∑ r : Fin 4096, p (ix2 q r) * w (ix2 r e) := by
  refine (Cert.Lib.Contract.matmul_zero_single dot_S1024x4096_S4096x33_S1024x33_1_0_0_1_n_n none 4096 rfl rfl _ _ (ix2 q e)
    (fun r => ix2 q r) (fun r => ix2 r e) (fun r pp hp => ?_) (fun r pp hp => ?_))
  · exact funext fun a => Fin.ext (by
      match a with
      | ⟨0, _⟩ => exact wt_lhs0 _ _
      | ⟨1, _⟩ => exact (wt_lhs1 _ _).trans hp)
  · exact funext fun a => Fin.ext (by
      match a with
      | ⟨0, _⟩ => exact (wt_rhs0 _ _).trans hp
      | ⟨1, _⟩ => exact wt_rhs1 _ _)

/-- The new accumulator at (q, e). -/
theorem acc_apply (x0 : FVec Ideal S1024x20 .f32) (x1 : FVec Ideal S4096x20 .f32) (x2 : FVec Ideal S4096x32 .f32)
    (xs0 : FVec Ideal S1024x1 .f32) (xs1 : FVec Ideal S1024x33 .f32) (q : Fin 1024) (e : Fin 33) :
    k0_pay7 (F := Ideal) x0 x1 x2 xs0 xs1 (ix2 q e)
      = xs1 (ix2 q e) * Ideal.exp (xs0 (ix2 q (0 : Fin 1)) - k0_pay5 (F := Ideal) x0 x1 xs0 (ix2 q (0 : Fin 1)))
        + ∑ r : Fin 4096, Ideal.exp (k0_pay4 (F := Ideal) x0 x1 (ix2 q r) - k0_pay5 (F := Ideal) x0 x1 xs0 (ix2 q (0 : Fin 1)))
            * withOnes x2 (ix2 r e) := by
  unfold k0_pay7
  rw [shapeCast_self]
  refine (addf_apply _ _ _).trans (congrArg₂ (· + ·) ?_ ?_)
  · refine (mulf_apply _ _ _).trans (congrArg (xs1 (ix2 q e) * ·) ?_)
    exact Cert.LibKeepdims.broadcastTo_a1_ab_apply _ broadcasts_S1024x1_S1024x33 q e
  · refine (weighted_apply _ _ q e).trans (Finset.sum_congr rfl fun r _ => congrArg (· * _) ?_)
    show Ideal.exp (k0_pay4 (F := Ideal) x0 x1 (ix2 q r)
      - broadcastTo S1024x4096 (k0_pay5 (F := Ideal) x0 x1 xs0) broadcasts_S1024x1_S1024x4096 (ix2 q r)) = _
    rw [Cert.LibKeepdims.broadcastTo_a1_ab_apply _ broadcasts_S1024x1_S1024x4096 q r]

/-- The output block at (q, e): the accumulator's entry divided by its last column's. -/
theorem out_apply (xs1 : FVec Ideal S1024x33 .f32) (q : Fin 1024) (e : Fin 32) :
    k0_pay1 (F := Ideal) xs1 (ix2 q e)
      = Ideal.div (xs1 (ix2 q ⟨e.val, by have := e.isLt; omega⟩)) (xs1 (ix2 q ⟨32, by decide⟩)) := by
  unfold k0_pay1
  refine (divf_apply _ _ _).trans (congrArg₂ Ideal.div ?_ ?_)
  · exact slice2_axis1_apply 0 xs1 slices_S1024x33_o0_0_S1024x32 q e _ (by show e.val = 0 + e.val; omega)
  · refine (Cert.LibKeepdims.broadcastTo_a1_ab_apply _ broadcasts_S1024x1_S1024x32 q e).trans ?_
    exact slice2_axis1_apply 32 xs1 slices_S1024x33_o0_32_S1024x1 q (0 : Fin 1) _ (by show 32 = 32 + 0; rfl)

/-- The reset maximum: every entry is the word 0xFF800000. -/
theorem reset_max_apply (i : S1024x1.Idx) : k0_pay2 (F := Ideal) i = Ideal.ofBits .f32 0xFF800000#32 := by
  unfold k0_pay2
  rw [shapeCast_self]
  rfl

/-- The reset accumulator: every entry is the zero word. -/
theorem reset_acc_apply (i : S1024x33.Idx) : k0_pay3 (F := Ideal) i = Ideal.ofBits .f32 0x00000000#32 := by
  unfold k0_pay3
  rw [shapeCast_self]
  rfl

end Cert.KernelIdeal.PayIdx

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.LibWords.lean ====
/-
  The four constant words of the two programs as extended reals, and the maximum of finitely many reals.

  0x41200000 is 10, 0x3F80 (a 16-bit word) is 1, 0x00000000 is 0 and 0xFF800000 is -inf, the bottom of the extended
  reals. A fold by max that starts at -inf, or at a real, over real terms stays -inf or real; over a nonempty index
  set it is a real number.
-/
import Idealize.ShloMosaic.PureOps.Ideal
import Idealize.ShloMosaic.PureOps.Ideal.Laws
import proofs.«175783_g62380105007505_cont_9to1_m_337_7_alg».proof.Proof.LibExtReals

noncomputable section

namespace Cert.Words

open Idealize.ShloMosaic

/-- The word 0x41200000 denotes 10. -/
theorem ten_word : Ideal.ofBits .f32 0x41200000#32 = ((10 : ℝ) : EReal) := by
  simp [Ideal.ofBits, Ideal.ieee]
  rw [← EReal.coe_mul]
  norm_num

/-- The 16-bit word 0x3F80 denotes 1. -/
theorem one_word16 : Ideal.ofBits .bf16 0x3F80#16 = ((1 : ℝ) : EReal) := by
  simp [Ideal.ofBits, Ideal.ieee]
  rw [← EReal.coe_mul]
  norm_num

/-- The word 0xFF800000 denotes -inf. -/
theorem neg_inf_word : Ideal.ofBits .f32 0xFF800000#32 = (⊥ : EReal) := by
  simp [Ideal.ofBits, Ideal.ieee]

/-- A fold by max over real terms, started at -inf or at a real, is -inf or a real. -/
theorem fold_max_bot_or_real {ι : Type} (g : ι → ℝ) (b : EReal) (hb : b = ⊥ ∨ ∃ c : ℝ, b = (c : EReal)) (s : Finset ι) :
    s.fold max b (fun i => (g i : EReal)) = ⊥ ∨ ∃ c : ℝ, s.fold max b (fun i => (g i : EReal)) = (c : EReal) := by
  classical
  induction s using Finset.induction_on with
  | empty => rw [Finset.fold_empty]; exact hb
  | insert a s ha ih =>
    rw [Finset.fold_insert ha]
    right
    rcases ih with h | ⟨c, h⟩
    · exact ⟨g a, by rw [h, max_eq_left bot_le]⟩
    · exact ⟨max (g a) c, by rw [h, Cert.Net.coe_max]⟩

/-- Over a nonempty index set it is a real. -/
theorem fold_max_real {ι : Type} (g : ι → ℝ) (b : EReal) (hb : b = ⊥ ∨ ∃ c : ℝ, b = (c : EReal)) (s : Finset ι)
    (hs : s.Nonempty) : ∃ c : ℝ, s.fold max b (fun i => (g i : EReal)) = (c : EReal) := by
  classical
  obtain ⟨a, ha⟩ := hs
  rw [← Finset.insert_erase ha, Finset.fold_insert (Finset.notMem_erase a s)]
  rcases fold_max_bot_or_real g b hb (s.erase a) with h | ⟨c, h⟩
  · exact ⟨g a, by rw [h, max_eq_left bot_le]⟩
  · exact ⟨max (g a) c, by rw [h, Cert.Net.coe_max]⟩

/-- The larger of -inf-or-real and a real is a real. -/
theorem max_real {x : EReal} (hx : x = ⊥ ∨ ∃ c : ℝ, x = (c : EReal)) (y : ℝ) : ∃ c : ℝ, max x (y : EReal) = (c : EReal) := by
  rcases hx with h | ⟨c, h⟩
  · exact ⟨y, by rw [h, max_eq_right bot_le]⟩
  · exact ⟨max c y, by rw [h, Cert.Net.coe_max]⟩

end Cert.Words

end
-- ==== Proof.LibSoftmax.lean ====
/-
  The online form of a softmax-weighted sum, over the reals.

  A softmax-weighted sum  Σ_j softmax(x)_j · w_j  is  (Σ_j e^{x_j - c} w_j) / (Σ_j e^{x_j - c})  for ANY real shift c:
  the factor e^{-c} cancels between numerator and denominator. So a running shift that is raised tile by tile can be
  used in place of the global maximum, as long as each raise rescales what was accumulated so far:
      (Σ_{j seen} e^{x_j - c} w_j) · e^{c - c'} + Σ_{j in the new tile} e^{x_j - c'} w_j = Σ_{j seen or new} e^{x_j - c'} w_j,
  because e^{x_j - c} · e^{c - c'} = e^{x_j - c'}. Nothing here depends on a program.
-/
import Mathlib.Analysis.SpecialFunctions.Exp
import Mathlib.Algebra.BigOperators.Intervals
import Mathlib.Algebra.BigOperators.Field
import Mathlib.Tactic

open scoped BigOperators

namespace Cert.Softmax

/-- The weighted sum of e^{x - c} over the first n tiles of T terms each. -/
noncomputable def part {T : ℕ} (X W : ℕ → Fin T → ℝ) (c : ℝ) (n : ℕ) : ℝ :=
  ∑ b ∈ Finset.range n, ∑ r : Fin T, Real.exp (X b r - c) * W b r

/-- Nothing accumulated yet. -/
theorem part_zero {T : ℕ} (X W : ℕ → Fin T → ℝ) (c : ℝ) : part X W c 0 = 0 := Finset.sum_range_zero _

/-- Raising the shift from c to c' rescales the accumulated sum by e^{c - c'}; the new tile is added at the new shift. -/
theorem part_step {T : ℕ} (X W : ℕ → Fin T → ℝ) (c c' : ℝ) (n : ℕ) :
    part X W c n * Real.exp (c - c') + ∑ r : Fin T, Real.exp (X n r - c') * W n r = part X W c' (n + 1) := by
  unfold part
  rw [Finset.sum_range_succ, Finset.sum_mul]
  refine congrArg (· + _) (Finset.sum_congr rfl fun b _ => ?_)
  rw [Finset.sum_mul]
  refine Finset.sum_congr rfl fun r _ => ?_
  rw [mul_right_comm, ← Real.exp_add]
  congr 2
  ring

/-- The first tile, from an accumulator at zero whatever factor multiplies it. -/
theorem part_first {T : ℕ} (X W : ℕ → Fin T → ℝ) (c' : ℝ) :
    ∑ r : Fin T, Real.exp (X 0 r - c') * W 0 r = part X W c' 1 := by
  unfold part
  rw [Finset.sum_range_one]

/-- A softmax-weighted sum does not depend on the shift: the quotient of the two shifted sums at c is the sum of
    the normalised weights at c'. -/
theorem shift_invariant {ι : Type} [Fintype ι] (x w : ι → ℝ) (c c' : ℝ) :
    (∑ j, Real.exp (x j - c) * w j) / (∑ j, Real.exp (x j - c))
      = ∑ j, (Real.exp (x j - c') / ∑ j', Real.exp (x j' - c')) * w j := by
  have h1 : ∀ d : ℝ, ∑ j, Real.exp (x j - d) * w j = (∑ j, Real.exp (x j) * w j) / Real.exp d := fun d => by
    rw [Finset.sum_div]
    exact Finset.sum_congr rfl fun j _ => by rw [Real.exp_sub]; ring
  have h2 : ∀ d : ℝ, ∑ j, Real.exp (x j - d) = (∑ j, Real.exp (x j)) / Real.exp d := fun d => by
    rw [Finset.sum_div]
    exact Finset.sum_congr rfl fun j _ => Real.exp_sub _ _
  have h3 : ∑ j, (Real.exp (x j - c') / ∑ j', Real.exp (x j' - c')) * w j
      = (∑ j, Real.exp (x j - c') * w j) / ∑ j', Real.exp (x j' - c') := by
    rw [Finset.sum_div]
    exact Finset.sum_congr rfl fun j _ => by ring
  rw [h3, h1 c, h2 c, h1 c', h2 c', div_div_div_cancel_right₀ (Real.exp_ne_zero c),
    div_div_div_cancel_right₀ (Real.exp_ne_zero c')]

/-- The shifted sum of exponentials over a nonempty index set is positive, so never zero. -/
theorem denom_ne_zero {ι : Type} [Fintype ι] [Nonempty ι] (x : ι → ℝ) (c : ℝ) : ∑ j, Real.exp (x j - c) ≠ 0 :=
  ne_of_gt (Finset.sum_pos (fun j _ => Real.exp_pos _) Finset.univ_nonempty)

end Cert.Softmax
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.LibTileRange.lean ====
/-
  A sum over Fin N as a sum of J tiles of T consecutive terms, when T · J = N.

  With f extended by zero past N, the sum of the first J tiles — tile s holds the terms T·s, T·s + 1, …, T·s + T − 1 —
  is the partial sum of the first T·J terms (induction on J, one tile at a time), and for T · J = N that partial sum
  is the whole sum. Only the commutative monoid laws of + are used.
-/
import proofs.«175783_g62380105007505_cont_9to1_m_337_7_alg».proof.Proof.LibSumTiles

open scoped BigOperators

namespace Cert.SumTiles

variable {β : Type*} [AddCommMonoid β] {N : ℕ}

/-- The first J tiles of T terms each add up to the partial sum of the first T · J terms. -/
theorem range_tiles (f : Fin N → β) (T : ℕ) : ∀ J : ℕ, T * J ≤ N →
    ∑ s ∈ Finset.range J, ∑ p : Fin T, ext0 f (T * s + p.val) = psum f (T * J)
  | 0, _ => by rw [Finset.sum_range_zero, Nat.mul_zero, psum_zero]
  | J + 1, h => by
    have hJ : T * J + T ≤ N := by rw [← Nat.mul_succ]; exact h
    rw [Finset.sum_range_succ, range_tiles f T J (le_trans (Nat.le_add_right _ _) hJ), Nat.mul_succ,
      psum_add_tile f (T * J) T hJ]
    exact congrArg _ (Finset.sum_congr rfl fun p _ => ext0_of_lt f _ _)

/-- J tiles of T terms that exhaust Fin N add up to the sum over Fin N. -/
theorem sum_tiles (f : Fin N → β) (T J : ℕ) (h : T * J = N) :
    ∑ s ∈ Finset.range J, ∑ p : Fin T, ext0 f (T * s + p.val) = ∑ r : Fin N, f r := by
  rw [range_tiles f T J (le_of_eq h), h, psum_full]

end Cert.SumTiles
-- ==== Proof.Online.lean ====
/-
  The body's update keeps the online-softmax invariant, for real inputs.

  With a(q, d), k(j, d), v(j, e) the real entries of the query, key and value arrays, s(q, j) = Σ_d (a(q, d) · 10) · k(j, d)
  the scaled score, and w(j, e) the value array with a column of ones appended (column 32): after n tiles of 4096 keys
  the running-maximum column holds some real c(q) and the accumulator holds
      acc(q, e) = Σ_{j < 4096 n} exp(s(q, j) - c(q)) · w(j, e).
  The first tile starts from the reset state (-inf and 0): exp(-inf - c') = 0 and 0 · 0 = 0. A later tile rescales by
  exp(c - c'), and exp(s - c) · exp(c - c') = exp(s - c'). After all 16 tiles, acc(q, e) / acc(q, 32) is the
  softmax-weighted sum of column e of v, whatever c(q) is.
-/
import proofs.«175783_g62380105007505_cont_9to1_m_337_7_alg».proof.Proof.PayIdx
import proofs.«175783_g62380105007505_cont_9to1_m_337_7_alg».proof.Proof.LibWords
import proofs.«175783_g62380105007505_cont_9to1_m_337_7_alg».proof.Proof.LibSoftmax
import proofs.«175783_g62380105007505_cont_9to1_m_337_7_alg».proof.Proof.LibExtReals
import proofs.«175783_g62380105007505_cont_9to1_m_337_7_alg».proof.Proof.LibTileRange

noncomputable section

open scoped BigOperators

namespace Cert.KernelIdeal.Online

open Cert.KernelIdeal Cert.KernelIdeal.Gen Cert.KernelIdeal.PayIdx Idealize.ShloMosaic Idealize.ShloMosaic.ValueIdx

variable (A : Fin 1024 → Fin 20 → ℝ) (Kk : Fin 65536 → Fin 20 → ℝ) (Vv : Fin 65536 → Fin 32 → ℝ)

/-- The scaled score of query q against key j. -/
def score (q : Fin 1024) (j : Fin 65536) : ℝ := ∑ d : Fin 20, (A q d * 10) * Kk j d

/-- Column e of the values with the ones column appended. -/
def wcol (e : Fin 33) (j : Fin 65536) : ℝ := if he : e.val < 32 then Vv j ⟨e.val, he⟩ else 1

/-- Tile b of the scores of row q. -/
def X (q : Fin 1024) (b : ℕ) (r : Fin 4096) : ℝ := Cert.SumTiles.ext0 (score A Kk q) (4096 * b + r.val)

/-- Tile b of column e of the extended values. -/
def W (e : Fin 33) (b : ℕ) (r : Fin 4096) : ℝ := Cert.SumTiles.ext0 (wcol Vv e) (4096 * b + r.val)

/-- The two carried buffers after n tiles. -/
def Inv (n : ℕ) (S0 : FVec Ideal S1024x1 .f32) (S1 : FVec Ideal S1024x33 .f32) : Prop :=
  ∀ q : Fin 1024, ∃ c : ℝ, S0 (ix2 q (0 : Fin 1)) = (c : EReal)
    ∧ ∀ e : Fin 33, S1 (ix2 q e) = ((Cert.Softmax.part (X A Kk q) (W Vv e) c n : ℝ) : EReal)

section step

variable (t : ℕ) (ht : t < 16)
  (x0 : FVec Ideal S1024x20 .f32) (x1 : FVec Ideal S4096x20 .f32) (x2 : FVec Ideal S4096x32 .f32)
  (hx0 : ∀ q d, x0 (ix2 q d) = (A q d : EReal))
  (hx1 : ∀ (r : Fin 4096) (d : Fin 20) (j : Fin 65536), j.val = 4096 * t + r.val → x1 (ix2 r d) = (Kk j d : EReal))
  (hx2 : ∀ (r : Fin 4096) (e : Fin 32) (j : Fin 65536), j.val = 4096 * t + r.val → x2 (ix2 r e) = (Vv j e : EReal))

include ht hx0 hx1 hx2

/-- One update at row q, from an old maximum that is -inf or real: the new maximum is a real c', and the new accumulator
    is the old one times exp(old - c') plus the tile's sum at the shift c'. -/
theorem core (xs0 : FVec Ideal S1024x1 .f32) (xs1 : FVec Ideal S1024x33 .f32) (q : Fin 1024)
    (hm : xs0 (ix2 q (0 : Fin 1)) = ⊥ ∨ ∃ c : ℝ, xs0 (ix2 q (0 : Fin 1)) = (c : EReal)) :
    ∃ c' : ℝ, k0_pay6 (F := Ideal) x0 x1 xs0 (ix2 q (0 : Fin 1)) = (c' : EReal)
      ∧ ∀ e : Fin 33, k0_pay7 (F := Ideal) x0 x1 x2 xs0 xs1 (ix2 q e)
          = xs1 (ix2 q e) * Ideal.exp (xs0 (ix2 q (0 : Fin 1)) - (c' : EReal))
            + ((∑ r : Fin 4096, Real.exp (X A Kk q t r - c') * W Vv e t r : ℝ) : EReal) := by
  have hj : ∀ r : Fin 4096, 4096 * t + r.val < 65536 := fun r => by have := r.isLt; omega
  have hs : ∀ r : Fin 4096, k0_pay4 (F := Ideal) x0 x1 (ix2 q r) = ((X A Kk q t r : ℝ) : EReal) := fun r => by
    rw [scores_apply]
    unfold X
    rw [Cert.SumTiles.ext0_of_lt _ _ (hj r)]
    unfold score
    rw [Cert.Net.coe_sum]
    refine Finset.sum_congr rfl fun d _ => ?_
    rw [hx0 q d, hx1 r d ⟨_, hj r⟩ rfl, Cert.Words.ten_word, ← EReal.coe_mul, ← EReal.coe_mul]
  have hw : ∀ (r : Fin 4096) (e : Fin 33), withOnes x2 (ix2 r e) = ((W Vv e t r : ℝ) : EReal) := fun r e => by
    unfold W
    rw [Cert.SumTiles.ext0_of_lt _ _ (hj r)]
    unfold wcol
    by_cases he : e.val < 32
    · rw [dif_pos he, withOnes_left x2 r e he, hx2 r ⟨e.val, he⟩ ⟨_, hj r⟩ rfl]
    · rw [dif_neg he, withOnes_right x2 r e (by have := e.isLt; omega), Cert.Words.one_word16]
  obtain ⟨c', hc'⟩ : ∃ c' : ℝ, k0_pay5 (F := Ideal) x0 x1 xs0 (ix2 q (0 : Fin 1)) = (c' : EReal) := by
    rw [rowmax_apply]
    simp only [hs]
    rw [Cert.Words.neg_inf_word]
    obtain ⟨f, hf⟩ := Cert.Words.fold_max_real (fun r : Fin 4096 => X A Kk q t r) ⊥ (Or.inl rfl) Finset.univ
      Finset.univ_nonempty
    rw [hf]
    exact Cert.Words.max_real hm f
  refine ⟨c', by rw [stored_max]; exact hc', fun e => ?_⟩
  rw [acc_apply, hc']
  refine congrArg (fun z : EReal => xs1 (ix2 q e) * Ideal.exp (xs0 (ix2 q (0 : Fin 1)) - (c' : EReal)) + z) ?_
  rw [Cert.Net.coe_sum]
  refine Finset.sum_congr rfl fun r _ => ?_
  rw [hs r, hw r e, ← EReal.coe_sub, Ideal.exp_coe, ← EReal.coe_mul]

/-- A later tile: from the state after t tiles to the state after t + 1. -/
theorem step_next (xs0 : FVec Ideal S1024x1 .f32) (xs1 : FVec Ideal S1024x33 .f32) (h : Inv A Kk Vv t xs0 xs1) :
    Inv A Kk Vv (t + 1) (k0_pay6 (F := Ideal) x0 x1 xs0) (k0_pay7 (F := Ideal) x0 x1 x2 xs0 xs1) := fun q => by
  obtain ⟨c, h0, h1⟩ := h q
  obtain ⟨c', h6, h7⟩ := core A Kk Vv t ht x0 x1 x2 hx0 hx1 hx2 xs0 xs1 q (Or.inr ⟨c, h0⟩)
  refine ⟨c', h6, fun e => ?_⟩
  rw [h7 e, h1 e, h0, ← EReal.coe_sub, Ideal.exp_coe, ← EReal.coe_mul, ← EReal.coe_add, Cert.Softmax.part_step]

end step

/-- The first tile, from the reset buffers. -/
theorem step_first (x0 : FVec Ideal S1024x20 .f32) (x1 : FVec Ideal S4096x20 .f32) (x2 : FVec Ideal S4096x32 .f32)
    (hx0 : ∀ q d, x0 (ix2 q d) = (A q d : EReal))
    (hx1 : ∀ (r : Fin 4096) (d : Fin 20) (j : Fin 65536), j.val = 4096 * 0 + r.val → x1 (ix2 r d) = (Kk j d : EReal))
    (hx2 : ∀ (r : Fin 4096) (e : Fin 32) (j : Fin 65536), j.val = 4096 * 0 + r.val → x2 (ix2 r e) = (Vv j e : EReal)) :
    Inv A Kk Vv 1 (k0_pay6 (F := Ideal) x0 x1 (k0_pay2 (F := Ideal)))
      (k0_pay7 (F := Ideal) x0 x1 x2 (k0_pay2 (F := Ideal)) (k0_pay3 (F := Ideal))) := fun q => by
  obtain ⟨c', h6, h7⟩ := core A Kk Vv 0 (by decide) x0 x1 x2 hx0 hx1 hx2 (k0_pay2 (F := Ideal)) (k0_pay3 (F := Ideal)) q
    (Or.inl (by rw [reset_max_apply, Cert.Words.neg_inf_word]))
  refine ⟨c', h6, fun e => ?_⟩
  rw [h7 e, reset_acc_apply, Ideal.ofBits_zero_f32, zero_mul, zero_add, Cert.Softmax.part_first]

/-- All 16 tiles together are the whole sum over the 65536 keys. -/
theorem part_full (q : Fin 1024) (e : Fin 33) (c : ℝ) :
    Cert.Softmax.part (X A Kk q) (W Vv e) c 16 = ∑ j : Fin 65536, Real.exp (score A Kk q j - c) * wcol Vv e j := by
  unfold Cert.Softmax.part
  rw [← Cert.SumTiles.sum_tiles (fun j : Fin 65536 => Real.exp (score A Kk q j - c) * wcol Vv e j) 4096 16 rfl]
  refine Finset.sum_congr rfl fun b hb => Finset.sum_congr rfl fun r _ => ?_
  have hj : 4096 * b + r.val < 65536 := by have := Finset.mem_range.1 hb; have := r.isLt; omega
  unfold X W
  rw [Cert.SumTiles.ext0_of_lt _ _ hj, Cert.SumTiles.ext0_of_lt _ _ hj, Cert.SumTiles.ext0_of_lt _ _ hj]

/-- After all 16 tiles the output block is the softmax-weighted sum of the values, written with any shift c'. -/
theorem out_final (S0 : FVec Ideal S1024x1 .f32) (S1 : FVec Ideal S1024x33 .f32) (h : Inv A Kk Vv 16 S0 S1)
    (q : Fin 1024) (e : Fin 32) (c' : ℝ) :
    k0_pay1 (F := Ideal) S1 (ix2 q e)
      = ((∑ j : Fin 65536, (Real.exp (score A Kk q j - c') / ∑ j' : Fin 65536, Real.exp (score A Kk q j' - c')) * Vv j e : ℝ) : EReal) := by
  obtain ⟨c, -, h1⟩ := h q
  have hden : Cert.Softmax.part (X A Kk q) (W Vv ⟨32, by decide⟩) c 16 = ∑ j : Fin 65536, Real.exp (score A Kk q j - c) := by
    rw [part_full]
    refine Finset.sum_congr rfl fun j _ => ?_
    unfold wcol
    rw [dif_neg (by decide), mul_one]
  have hnum : Cert.Softmax.part (X A Kk q) (W Vv ⟨e.val, by have := e.isLt; omega⟩) c 16
      = ∑ j : Fin 65536, Real.exp (score A Kk q j - c) * Vv j e := by
    rw [part_full]
    refine Finset.sum_congr rfl fun j _ => ?_
    unfold wcol
    rw [dif_pos (show (⟨e.val, _⟩ : Fin 33).val < 32 from e.isLt)]
  rw [out_apply, h1, h1, hden, hnum, Ideal.div_coe (Cert.Softmax.denom_ne_zero _ c), ← EReal.coe_mul, mul_one_div,
    Cert.Softmax.shift_invariant _ _ c c']

end Cert.KernelIdeal.Online

end
-- ==== Proof.KernelValue.lean ====
/-
  The kernel's result array, for real inputs.

  Point t of the grid stages the whole query array, rows 4096 t … 4096 t + 4095 of the key and value arrays, and updates
  the two carried buffers; so after point t they hold the online-softmax state over the first t + 1 tiles (induction on
  the point). The last point stores the quotient into the output block, which is the whole result array, and it is the
  only point that writes the block back. Hence the result array is the softmax-weighted sum of the values.
-/
import proofs.«175783_g62380105007505_cont_9to1_m_337_7_alg».proof.Proof.Gen.KernelIdeal.Value
import proofs.«175783_g62380105007505_cont_9to1_m_337_7_alg».proof.Proof.Pieces
import proofs.«175783_g62380105007505_cont_9to1_m_337_7_alg».proof.Proof.Online
import Idealize.ShloMosaic.Lib.Pipeline.Value

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Online Idealize.ShloMosaic.ValueIdx

/-! ## What each point leaves, by the case it is in -/

section cases

variable {F : FTy → Type} [FloatOps F]
variable (m : (ℓ : Loc nD τ sig) → Buf (Elt F) ℓ) (c : Dev nD)

/-- The three input blocks at point t, at their literal shapes. -/
abbrev qblk (t : Fin cfg0.N) : Vec F S1024x20 .f32 := iblk m c 0 t
abbrev kblk (t : Fin cfg0.N) : Vec F S4096x20 .f32 := iblk m c 1 t
abbrev vblk (t : Fin cfg0.N) : Vec F S4096x32 .f32 := iblk m c 2 t

/-- The first point: both carried buffers are the update of the reset values. -/
theorem at_first (t : Fin cfg0.N) (h0 : t.val % 16 = 0) (h1 : ¬t.val % 16 = 15) :
    (outsAt0 m c t.val t.isLt).2.1 = k0_pay6 (qblk m c t) (kblk m c t) (k0_pay2 (F := F))
    ∧ (outsAt0 m c t.val t.isLt).2.2 = k0_pay7 (qblk m c t) (kblk m c t) (vblk m c t) (k0_pay2 (F := F)) (k0_pay3 (F := F)) := by
  refine ⟨?_, ?_⟩
  · rw [outsAt0_A m c t h0 h1]
    dsimp only
    exact Pieces.first_max c (grid0.coords t) (ms0_0 t) (hs0_0 t) (ms0_1 t) (hs0_1 t) (ms0_2 t) (hs0_2 t) (ms0_3 t) (hs0_3 t)
      scM0_0 (Memref.isWhole_whole _) scM0_1 (Memref.isWhole_whole _) ((hcond0_0 t).mpr h0) (fun h => h1 ((hcond0_1 t).mp h))
      (iblk m c 0 t) (iblk m c 1 t) (iblk m c 2 t)
  · rw [outsAt0_A m c t h0 h1]
    dsimp only
    exact Pieces.first_acc c (grid0.coords t) (ms0_0 t) (hs0_0 t) (ms0_1 t) (hs0_1 t) (ms0_2 t) (hs0_2 t) (ms0_3 t) (hs0_3 t)
      scM0_0 (Memref.isWhole_whole _) scM0_1 (Memref.isWhole_whole _) ((hcond0_0 t).mpr h0) (fun h => h1 ((hcond0_1 t).mp h))
      (iblk m c 0 t) (iblk m c 1 t) (iblk m c 2 t)

/-- What the point before t left in the two carried buffers. -/
abbrev prev0 (t : Fin cfg0.N) : Vec F S1024x1 .f32 :=
  (outsAt0 m c (t.val - 1) (Nat.lt_of_le_of_lt (Nat.sub_le _ _) t.isLt)).2.1
abbrev prev1 (t : Fin cfg0.N) : Vec F S1024x33 .f32 :=
  (outsAt0 m c (t.val - 1) (Nat.lt_of_le_of_lt (Nat.sub_le _ _) t.isLt)).2.2

/-- A middle point: the update of what the point before left. -/
theorem at_mid (t : Fin cfg0.N) (h0 : ¬t.val % 16 = 0) (h1 : ¬t.val % 16 = 15) :
    (outsAt0 m c t.val t.isLt).2.1 = k0_pay6 (qblk m c t) (kblk m c t) (prev0 m c t)
    ∧ (outsAt0 m c t.val t.isLt).2.2 = k0_pay7 (qblk m c t) (kblk m c t) (vblk m c t) (prev0 m c t) (prev1 m c t) := by
  refine ⟨?_, ?_⟩
  · rw [outsAt0_B m c t h0 h1]
    dsimp only
    exact Pieces.mid_max c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (fun h => h0 ((hcond0_0 t).mp h)) (fun h => h1 ((hcond0_1 t).mp h))
      (iblk m c 0 t) (iblk m c 1 t) (iblk m c 2 t)
      (outsAt0 m c (t.val - 1) (Nat.lt_of_le_of_lt (Nat.sub_le _ _) t.isLt)).2.1
      (outsAt0 m c (t.val - 1) (Nat.lt_of_le_of_lt (Nat.sub_le _ _) t.isLt)).2.2
  · rw [outsAt0_B m c t h0 h1]
    dsimp only
    exact Pieces.mid_acc c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (fun h => h0 ((hcond0_0 t).mp h)) (fun h => h1 ((hcond0_1 t).mp h))
      (iblk m c 0 t) (iblk m c 1 t) (iblk m c 2 t)
      (outsAt0 m c (t.val - 1) (Nat.lt_of_le_of_lt (Nat.sub_le _ _) t.isLt)).2.1
      (outsAt0 m c (t.val - 1) (Nat.lt_of_le_of_lt (Nat.sub_le _ _) t.isLt)).2.2

/-- The last point: the same update, and the output block is the quotient taken of the new accumulator. -/
theorem at_last (t : Fin cfg0.N) (h0 : ¬t.val % 16 = 0) (h1 : t.val % 16 = 15) :
    (outsAt0 m c t.val t.isLt).2.1 = k0_pay6 (qblk m c t) (kblk m c t) (prev0 m c t)
    ∧ (outsAt0 m c t.val t.isLt).2.2 = k0_pay7 (qblk m c t) (kblk m c t) (vblk m c t) (prev0 m c t) (prev1 m c t)
    ∧ (outsAt0 m c t.val t.isLt).1
        = k0_pay1 (k0_pay7 (qblk m c t) (kblk m c t) (vblk m c t) (prev0 m c t) (prev1 m c t)) := by
  refine ⟨?_, ?_, ?_⟩
  · rw [outsAt0_C m c t h0 h1]
    dsimp only
    exact Pieces.last_max c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2.1
      (outsAt0 m c (t.val - 1) (Nat.lt_of_le_of_lt (Nat.sub_le _ _) t.isLt)).2.2
  · rw [outsAt0_C m c t h0 h1]
    dsimp only
    exact Pieces.last_acc c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2.1
      (outsAt0 m c (t.val - 1) (Nat.lt_of_le_of_lt (Nat.sub_le _ _) t.isLt)).2.2
  · rw [outsAt0_C m c t h0 h1]
    dsimp only
    exact Pieces.last_out c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2.1
      (outsAt0 m c (t.val - 1) (Nat.lt_of_le_of_lt (Nat.sub_le _ _) t.isLt)).2.2

/-- Where each window's block sits: the query block at (0, 0), the key and value blocks at (t, 0). -/
theorem idx_facts : ∀ t : Fin cfg0.N,
    (win0_0.index t 0 = 0 ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = 0 ∧ win0_0.index t 1 = 0) ∧ (win0_1.index t 0 = t.val ∧ win0_1.index t 1 = 0)
      ∧ (win0_2.index t 0 = t.val ∧ win0_2.index t 1 = 0))

/-- The query block is the whole query array. -/
theorem qblk_apply (t : Fin cfg0.N) (q : Fin 1024) (d : Fin 20) :
    qblk m c t (ix2 q d) = m ((c : Thread nD τ).loc main_arg2) (ix2 q d) := by
  have hi := (idx_facts t).1
  unfold qblk iblk
  rw [View.read_apply]
  show V m c main_arg2 _ = m (c.tc.loc main_arg2) _
  unfold V
  congr 1
  funext a
  apply Fin.ext
  match a with
  | ⟨0, _⟩ => show win0_0.index t 0 * 1024 + 1 * q.val = q.val; rw [hi.1]; omega
  | ⟨1, _⟩ => show win0_0.index t 1 * 20 + 1 * d.val = d.val; rw [hi.2]; omega

/-- The key block at point t is rows 4096 t + r of the key array. -/
theorem kblk_apply (t : Fin cfg0.N) (r : Fin 4096) (d : Fin 20) (j : Fin 65536) (hj : j.val = 4096 * t.val + r.val) :
    kblk m c t (ix2 r d) = m ((c : Thread nD τ).loc main_arg0) (ix2 j d) := by
  have hi := (idx_facts t).2.1
  unfold kblk iblk
  rw [View.read_apply]
  show V m c main_arg0 _ = m (c.tc.loc main_arg0) _
  unfold V
  congr 1
  funext a
  apply Fin.ext
  match a with
  | ⟨0, _⟩ => show win0_1.index t 0 * 4096 + 1 * r.val = j.val; rw [hi.1]; omega
  | ⟨1, _⟩ => show win0_1.index t 1 * 20 + 1 * d.val = d.val; rw [hi.2]; omega

/-- The value block at point t is rows 4096 t + r of the value array. -/
theorem vblk_apply (t : Fin cfg0.N) (r : Fin 4096) (e : Fin 32) (j : Fin 65536) (hj : j.val = 4096 * t.val + r.val) :
    vblk m c t (ix2 r e) = m ((c : Thread nD τ).loc main_arg1) (ix2 j e) := by
  have hi := (idx_facts t).2.2
  unfold vblk iblk
  rw [View.read_apply]
  show V m c main_arg1 _ = m (c.tc.loc main_arg1) _
  unfold V
  congr 1
  funext a
  apply Fin.ext
  match a with
  | ⟨0, _⟩ => show win0_2.index t 0 * 4096 + 1 * r.val = j.val; rw [hi.1]; omega
  | ⟨1, _⟩ => show win0_2.index t 1 * 32 + 1 * e.val = e.val; rw [hi.2]; omega

end cases

/-! ## The invariant along the grid, and the result -/

variable (m : (ℓ : Loc nD τ sig) → Buf (Elt Ideal) ℓ) (ρ : Dev nD → PrngReg) (c : Dev nD)
variable (A : Fin 1024 → Fin 20 → ℝ) (Kk : Fin 65536 → Fin 20 → ℝ) (Vv : Fin 65536 → Fin 32 → ℝ)
  (hA : ∀ q d, m ((c : Thread nD τ).loc main_arg2) (ix2 q d) = (A q d : EReal))
  (hK : ∀ j d, m ((c : Thread nD τ).loc main_arg0) (ix2 j d) = (Kk j d : EReal))
  (hV : ∀ j e, m ((c : Thread nD τ).loc main_arg1) (ix2 j e) = (Vv j e : EReal))

include hA hK hV in
/-- After point n the carried buffers hold the online state over n + 1 tiles. -/
theorem inv_at : ∀ (n : ℕ) (hn : n < cfg0.N),
    Inv A Kk Vv (n + 1) (outsAt0 m c n hn).2.1 (outsAt0 m c n hn).2.2
  | 0, hn => by
    obtain ⟨e1, e2⟩ := at_first m c ⟨0, hn⟩ rfl (by show ¬0 % 16 = 15; decide)
    refine (congrArg₂ (Inv A Kk Vv 1) e1 e2).mpr (step_first A Kk Vv _ _ _ (fun q d => ?_) (fun r d j hj => ?_) (fun r e j hj => ?_))
    · rw [qblk_apply, hA]
    · rw [kblk_apply m c ⟨0, hn⟩ r d j hj, hK]
    · rw [vblk_apply m c ⟨0, hn⟩ r e j hj, hV]
  | n + 1, hn => by
    have hN : n + 1 < 16 := lt_of_lt_of_eq hn (show cfg0.N = 16 from N_0)
    have ih := inv_at n (Nat.lt_of_succ_lt hn)
    have hx0 : ∀ q d, qblk m c ⟨n + 1, hn⟩ (ix2 q d) = (A q d : EReal) := fun q d => by rw [qblk_apply, hA]
    have hx1 : ∀ (r : Fin 4096) (d : Fin 20) (j : Fin 65536), j.val = 4096 * (n + 1) + r.val →
        kblk m c ⟨n + 1, hn⟩ (ix2 r d) = (Kk j d : EReal) := fun r d j hj => by
      rw [kblk_apply m c ⟨n + 1, hn⟩ r d j hj, hK]
    have hx2 : ∀ (r : Fin 4096) (e : Fin 32) (j : Fin 65536), j.val = 4096 * (n + 1) + r.val →
        vblk m c ⟨n + 1, hn⟩ (ix2 r e) = (Vv j e : EReal) := fun r e j hj => by
      rw [vblk_apply m c ⟨n + 1, hn⟩ r e j hj, hV]
    by_cases h15 : (n + 1) % 16 = 15
    · obtain ⟨e1, e2, -⟩ := at_last m c ⟨n + 1, hn⟩ (by dsimp only; omega) h15
      exact (congrArg₂ (Inv A Kk Vv (n + 1 + 1)) e1 e2).mpr
        (step_next A Kk Vv (n + 1) hN _ _ _ hx0 hx1 hx2 _ _ ih)
    · obtain ⟨e1, e2⟩ := at_mid m c ⟨n + 1, hn⟩ (by dsimp only; omega) h15
      exact (congrArg₂ (Inv A Kk Vv (n + 1 + 1)) e1 e2).mpr
        (step_next A Kk Vv (n + 1) hN _ _ _ hx0 hx1 hx2 _ _ ih)

include hA hK hV in
/-- At the last point the output block at (q, e) is the softmax-weighted sum of column e of the values, written with
    any shift c'. -/
theorem out_at_last (t : Fin cfg0.N) (h1 : t.val % 16 = 15) (q : Fin 1024) (e : Fin 32) (c' : ℝ) :
    (outsAt0 m c t.val t.isLt).1 (ix2 q e)
      = ((∑ j : Fin 65536, (Real.exp (score A Kk q j - c') / ∑ j' : Fin 65536, Real.exp (score A Kk q j' - c')) * Vv j e : ℝ) : EReal) := by
  have hN : t.val < 16 := lt_of_lt_of_eq t.isLt (show cfg0.N = 16 from N_0)
  obtain ⟨-, e2, e3⟩ := at_last m c t (by omega) h1
  have hinv := inv_at m c A Kk Vv hA hK hV t.val t.isLt
  have h16 : t.val + 1 = 16 := by omega
  rw [h16] at hinv
  rw [e3, ← e2]
  exact out_final A Kk Vv _ _ hinv q e c'

/-- The output block after the last point. -/
abbrev result : Buf (Elt Ideal) ((c : Thread nD τ).loc main_v0) := (outsAt0 m c t0_15.val t0_15.isLt).1

include hA hK hV in
/-- The result at (q, e). -/
theorem result_apply (q : Fin 1024) (e : Fin 32) (c' : ℝ) :
    result m c (ix2 q e)
      = ((∑ j : Fin 65536, (Real.exp (score A Kk q j - c') / ∑ j' : Fin 65536, Real.exp (score A Kk q j' - c')) * Vv j e : ℝ) : EReal) :=
  out_at_last m c A Kk Vv hA hK hV t0_15 (by show (15 : ℕ) % 16 = 15; rfl) q e c'

/-! ## From the output block to the result array -/

/-- The one write-back, at the last point, writes the output block: block (0, 0) of the [1024, 32] array is the array. -/
theorem flushed_eq (t : Fin cfg0.N) (hf : (cfg0.win 3).flush t = true) :
    (dats m 0 c).flushed 3 t = ((cfg0.win 3).blk t).view.read (Elt Ideal) (result m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  have hz' : (fun a => win0_3.index t0_15 a * main_v0.ty.shape.size a) = fun _ => 0 := funext fun a => by fin_cases a <;> decide
  exact (Memref.read_access_unit_zero (Elt Ideal) main_v0 hz' (fun a => by rw [congrFun hz' a]; simp) (result m c)).symm

/-- So the result array ends holding the output block of the last point. -/
theorem final_o : (dats m 0 c).arrAt 3 cfg0.N = result m c :=
  (dats m 0 c).arrAt_eq_of_cover 3 (result m c) (flushed_eq m c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 1024 := (i 0).isLt
      have h1 : (i 1 : Nat) < 32 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1024 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 32 from by decide +kernel]; omega⟩

/-- The kernel's run with the result array named: the output block of the last point; the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_o m c), (h c).2⟩) (Cert.KernelIdeal.Value.run_blocks m ρ)

end Cert.KernelIdeal.Final

end
-- ==== Proof.LibRowFold.lean ====
/-
  A HOST REDUCTION ALONG THE LAST AXIS OF A MATRIX, READ AT A ROW — generic in the two extents.

  A one-operand `stablehlo.reduce` of an [A, B] array along axis 1 whose body is commutative and associative (a maximum,
  a minimum) computes, at row j, the fold of the body from the initial value over the B entries of row j — in any order,
  since the body is commutative and associative:

  * `reduce_row_fold`  — Host.reduce f x init … j = (Finset.univ : Finset (Fin B)).fold f (init ·) (fun k => x (ix2 (j 0) k));
  * `fold_maximumf`    — over the extended reals the fold by the float maximum is the fold by `max`.

  Nothing here depends on a program.
-/
import Idealize.ShloMosaic.PureOps.Ideal
import Idealize.ShloMosaic.PureOps.Ideal.Laws
import Idealize.ShloMosaic.PureOps.Reduce
import Idealize.ShloMosaic.Lib.ValueIdx

noncomputable section

namespace Cert.Lib.RowFold

open Idealize.ShloMosaic Idealize.ShloMosaic.ValueIdx

/-- A one-operand reduce of an [A, B] array along axis 1 with a commutative associative body is, at row j, the fold
    from the initial value over the row's entries. -/
theorem reduce_row_fold {A B : Nat} (f : EReal → EReal → EReal) [Std.Commutative f] [Std.Associative f]
    (h' : (⟨2, ![A, B]⟩ : Shape).ReducesTo [1] ⟨1, ![A]⟩) (h : (⟨2, ![A, B]⟩ : Shape).Reduces [1] ⟨1, ![A]⟩)
    (x : (⟨2, ![A, B]⟩ : Shape).Idx → EReal) (init : (⟨0, ![]⟩ : Shape).Idx → EReal)
    (hu : 0 < (⟨0, ![]⟩ : Shape).numel) (j : (⟨1, ![A]⟩ : Shape).Idx) :
    Host.reduce f x init h' hu j
      = (Finset.univ : Finset (Fin B)).fold f (init (Shape.Idx.first hu)) (fun k => x (ix2 (j 0) k)) := by
  rw [Host.reduce_eq_fold_single f x init h' h hu j]
  show (Finset.univ : Finset (Fin B)).fold f (init (Shape.Idx.first hu)) (x ∘ h.lift j) = _
  refine congrArg (fun g => (Finset.univ : Finset (Fin B)).fold f _ g) (funext fun k => congrArg x ?_)
  exact funext fun a => Fin.ext (by match a with | ⟨0, _⟩ => rfl | ⟨1, _⟩ => rfl)

/-- At the ideal values the fold by the float maximum is the fold by max. -/
theorem fold_maximumf {ι : Type} (s : Finset ι) (b : EReal) (g : ι → EReal) :
    s.fold (FloatOps.maximumf (F := Ideal) (φ := .f32)) b g = s.fold max b g := rfl

end Cert.Lib.RowFold

end
-- ==== Proof.RefIdx.lean ====
/-
  The reference's result read at an index, for real inputs.

  The reference forms all scores x(q, j) = (Σ_d a(q, d) · k(j, d)) · 10, the row maximum M(q) = max(-inf, max_j x(q, j)),
  the weights exp(x - M) / Σ_j exp(x - M) and their product with the value array. For real inputs every stage is a
  real number: M(q) is the maximum of finitely many reals, the denominator is a positive real, and the result at (q, e)
  is  Σ_j (exp(s(q, j) - M(q)) / Σ_j' exp(s(q, j') - M(q))) · v(j, e)  with s(q, j) = Σ_d (a(q, d) · 10) · k(j, d) = x(q, j).
-/
import proofs.«175783_g62380105007505_cont_9to1_m_337_7_alg».proof.Proof.Gen.ReferenceIdeal.Read
import proofs.«175783_g62380105007505_cont_9to1_m_337_7_alg».proof.Proof.LibWords
import proofs.«175783_g62380105007505_cont_9to1_m_337_7_alg».proof.Proof.LibSoftmax
import proofs.«175783_g62380105007505_cont_9to1_m_337_7_alg».proof.Proof.LibExtReals
import proofs.«175783_g62380105007505_cont_9to1_m_337_7_alg».proof.Proof.LibRowFold

noncomputable section

open scoped BigOperators

namespace Cert.ReferenceIdeal.RefIdx

open Cert.ReferenceIdeal Cert.ReferenceIdeal.Gen Cert.ReferenceIdeal.Read Idealize.ShloMosaic Idealize.ShloMosaic.ValueIdx

instance : Std.Commutative (FloatOps.maximumf (F := Ideal) (φ := .f32)) := ⟨fun a b => max_comm a b⟩
instance : Std.Associative (FloatOps.maximumf (F := Ideal) (φ := .f32)) := ⟨fun a b c => max_assoc a b c⟩

variable (A : Fin 1024 → Fin 20 → ℝ) (Kk : Fin 65536 → Fin 20 → ℝ) (Vv : Fin 65536 → Fin 32 → ℝ)

/-- The scaled score of query q against key j. -/
def score (q : Fin 1024) (j : Fin 65536) : ℝ := ∑ d : Fin 20, (A q d * 10) * Kk j d

variable (x0 : FVec Ideal S65536x20 .f32) (x1 : FVec Ideal S65536x32 .f32) (x2 : FVec Ideal S1024x20 .f32)
  (hx0 : ∀ j d, x0 (ix2 j d) = (Kk j d : EReal)) (hx1 : ∀ j e, x1 (ix2 j e) = (Vv j e : EReal))
  (hx2 : ∀ q d, x2 (ix2 q d) = (A q d : EReal))

include hx0 hx2 in
/-- The scaled scores are real. -/
theorem scores_real (q : Fin 1024) (j : Fin 65536) :
    val_main_v3 (F := Ideal) x0 x2 (ix2 q j) = ((score A Kk q j : ℝ) : EReal) := by
  rw [val_main_v3_apply, val_main_v1_apply, val_main_v2_apply, val_main_cst_apply]
  have e : ∀ k : Fin 20, x2 (lidx_main_v1 (ix2 q j) k) * val_main_v0 (F := Ideal) x0 (ridx_main_v1 (ix2 q j) k)
      = ((A q k * Kk j k : ℝ) : EReal) := fun k => by
    rw [val_main_v0_apply]
    have e1 : lidx_main_v1 (ix2 q j) k = ix2 q k := funext fun a => Fin.ext (by match a with | ⟨0, _⟩ => rfl | ⟨1, _⟩ => rfl)
    have e2 : idx_main_v0 (ridx_main_v1 (ix2 q j) k) = ix2 j k :=
      funext fun a => Fin.ext (by match a with | ⟨0, _⟩ => rfl | ⟨1, _⟩ => rfl)
    rw [e1, e2, hx2, hx0, ← EReal.coe_mul]
  simp only [e]
  rw [Ideal.mulf_def, Ideal.ofBits_def, Cert.Words.ten_word, ← Cert.Net.coe_sum, ← EReal.coe_mul]
  unfold score
  refine congrArg _ ?_
  rw [Finset.sum_mul]
  exact Finset.sum_congr rfl fun d _ => by ring

include hx0 hx2 in
/-- The row maximum is a real number. -/
theorem rowmax_real (q : Fin 1024) : ∃ c : ℝ, val_main_v6 (F := Ideal) x0 x2 (ix1 q) = (c : EReal) := by
  rw [val_main_v6_apply, val_main_v5_apply, val_main_cst_1_apply, Ideal.maximumf_def, Ideal.ofBits_def,
    Cert.Words.neg_inf_word, max_eq_right bot_le]
  unfold val_main_v4
  rw [Cert.Lib.RowFold.reduce_row_fold (FloatOps.maximumf (F := Ideal) (φ := .f32)) reducesTo_S1024x65536_S1024_d1 (by decide)
    (val_main_v3 (F := Ideal) x0 x2) (val_main_cst_0 (F := Ideal)) h_S_ (ix1 q), Cert.Lib.RowFold.fold_maximumf]
  simp only [scores_real A Kk x0 x2 hx0 hx2]
  rw [val_main_cst_0_apply, Ideal.ofBits_def, Cert.Words.neg_inf_word]
  exact Cert.Words.fold_max_real (fun j : Fin 65536 => score A Kk q j) ⊥ (Or.inl rfl) Finset.univ Finset.univ_nonempty

include hx0 hx1 hx2 in
/-- The reference's result at (q, e): the softmax-weighted sum of column e of the values, at the shift it computed. -/
theorem result_apply (q : Fin 1024) (e : Fin 32) :
    ∃ c : ℝ, val_main_v15 (F := Ideal) x0 x1 x2 (ix2 q e)
      = ((∑ j : Fin 65536, (Real.exp (score A Kk q j - c) / ∑ j' : Fin 65536, Real.exp (score A Kk q j' - c)) * Vv j e : ℝ) : EReal) := by
  obtain ⟨c, hc⟩ := rowmax_real A Kk x0 x2 hx0 hx2 q
  refine ⟨c, ?_⟩
  have h10 : ∀ j : Fin 65536, val_main_v10 (F := Ideal) x0 x2 (ix2 q j) = ((Real.exp (score A Kk q j - c) : ℝ) : EReal) := fun j => by
    rw [val_main_v10_apply, val_main_v9_apply, val_main_v8_apply, val_main_v7_apply, scores_real A Kk x0 x2 hx0 hx2]
    have e1 : idx_main_v7 (idx_main_v8 (ix2 q j)) = ix1 q := funext fun a => Fin.ext (by match a with | ⟨0, _⟩ => rfl)
    rw [e1, hc, Ideal.hostUnary_exp_def, Ideal.subf_def, ← EReal.coe_sub, Ideal.exp_coe]
  have h11 : val_main_v11 (F := Ideal) x0 x2 (ix1 q) = ((∑ j' : Fin 65536, Real.exp (score A Kk q j' - c) : ℝ) : EReal) := by
    rw [val_main_v11_apply, val_main_cst_2_apply, Ideal.ofBits_def, Ideal.ofBits_zero_f32, zero_add, Cert.Net.coe_sum]
    refine Finset.sum_congr rfl fun k _ => ?_
    have e1 : idx_main_v11 (ix1 q) k = ix2 q k := funext fun a => Fin.ext (by match a with | ⟨0, _⟩ => rfl | ⟨1, _⟩ => rfl)
    rw [e1, h10]
  have h14 : ∀ j : Fin 65536, val_main_v14 (F := Ideal) x0 x2 (ix2 q j)
      = ((Real.exp (score A Kk q j - c) / ∑ j' : Fin 65536, Real.exp (score A Kk q j' - c) : ℝ) : EReal) := fun j => by
    rw [val_main_v14_apply, val_main_v13_apply, val_main_v12_apply, h10]
    have e1 : idx_main_v12 (idx_main_v13 (ix2 q j)) = ix1 q := funext fun a => Fin.ext (by match a with | ⟨0, _⟩ => rfl)
    rw [e1, h11, Ideal.hostDivf_def, Ideal.div_coe (Cert.Softmax.denom_ne_zero _ c), ← EReal.coe_mul, mul_one_div]
  rw [val_main_v15_apply, Cert.Net.coe_sum]
  refine Finset.sum_congr rfl fun k _ => ?_
  have e1 : lidx_main_v15 (ix2 q e) k = ix2 q k := funext fun a => Fin.ext (by match a with | ⟨0, _⟩ => rfl | ⟨1, _⟩ => rfl)
  have e2 : ridx_main_v15 (ix2 q e) k = ix2 k e := funext fun a => Fin.ext (by match a with | ⟨0, _⟩ => rfl | ⟨1, _⟩ => rfl)
  rw [e1, e2, h14, hx1, ← EReal.coe_mul]

end Cert.ReferenceIdeal.RefIdx

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition read back: every entry of the three argument arrays is a real number.

  The precondition is the conjunction of three tests all(|x| < +inf), one per array. A conjunction that is 1 has both
  sides 1, and each test that is 1 says every entry of its array is a real number.
-/
import proofs.«175783_g62380105007505_cont_9to1_m_337_7_alg».proof.Pre_finite_inputs
import proofs.«175783_g62380105007505_cont_9to1_m_337_7_alg».proof.Proof.LibFinite
import Idealize.ShloMosaic.Lib.Affine
import Idealize.ShloMosaic.Lib.ValueIdx

noncomputable section

namespace Cert.Finite

open Idealize.ShloMosaic Cert.Pre_finite_inputs

variable [Cert.Pre_finite_inputs.Facts]

/-- Under the precondition the three arrays hold real numbers only. -/
theorem real_of_pre (a0 : FVec Ideal S65536x20 .f32) (a1 : FVec Ideal S65536x32 .f32) (a2 : FVec Ideal S1024x20 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h8, h12⟩ := IntOp.andi_eq_one.1 h0
  obtain ⟨h3, h7⟩ := IntOp.andi_eq_one.1 h8
  exact ⟨Cert.LibFinite.real_of_all a0 _ _ _ _ h3, Cert.LibFinite.real_of_all a1 _ _ _ _ h7,
    Cert.LibFinite.real_of_all a2 _ _ _ _ h12⟩

end Cert.Finite

end
-- ==== Proof.lean ====
/-
  Attention over a key/value memory, streamed: the kernel never forms the [1024, 65536] score matrix. It walks the
  65536 keys in 16 tiles of 4096, carrying per query a running maximum and an accumulator of exp(score - maximum)-weighted
  values together with the sum of the weights (a column of ones appended to the values), rescaling the accumulator
  whenever the maximum rises, and divides once at the end. The reference forms every score, subtracts each row's
  maximum, exponentiates, normalises and multiplies by the values.

  On the extended reals, for real inputs, both are  Σ_j softmax(s(q, ·))_j · v(j, e)  with s(q, j) = Σ_d 10 a(q, d) k(j, d):
  * the temperature may be folded into the queries before the product (distributivity, for reals);
  * the rescaling keeps  acc = Σ_{j seen} exp(s_j - c) w_j  for the current shift c, since exp(s - c) exp(c - c') = exp(s - c');
  * the quotient (Σ_j exp(s_j - c) v_j) / (Σ_j exp(s_j - c)) does not depend on the shift c, so the kernel's last running
    maximum and the reference's row maximum need not be compared: both are real numbers, and that is all that is used.
  The precondition (every input finite) makes all of these real-number computations.
-/
import proofs.«175783_g62380105007505_cont_9to1_m_337_7_alg».proof.Defs
import proofs.«175783_g62380105007505_cont_9to1_m_337_7_alg».proof.Proof.Gen.Kernel
import proofs.«175783_g62380105007505_cont_9to1_m_337_7_alg».proof.Proof.Gen.Kernel.Frame
import proofs.«175783_g62380105007505_cont_9to1_m_337_7_alg».proof.Proof.Gen.KernelIdeal
import proofs.«175783_g62380105007505_cont_9to1_m_337_7_alg».proof.Proof.Gen.KernelIdeal.Frame
import proofs.«175783_g62380105007505_cont_9to1_m_337_7_alg».proof.Proof.Gen.KernelIdeal.Value
import proofs.«175783_g62380105007505_cont_9to1_m_337_7_alg».proof.Proof.Gen.ReferenceIdeal
import proofs.«175783_g62380105007505_cont_9to1_m_337_7_alg».proof.Proof.Gen.ReferenceIdeal.Run
import proofs.«175783_g62380105007505_cont_9to1_m_337_7_alg».proof.Proof.Gen.ReferenceIdeal.Read
import proofs.«175783_g62380105007505_cont_9to1_m_337_7_alg».proof.Proof.Gen.Pre_finite_inputs
import proofs.«175783_g62380105007505_cont_9to1_m_337_7_alg».proof.Proof.KernelValue
import proofs.«175783_g62380105007505_cont_9to1_m_337_7_alg».proof.Proof.RefIdx
import proofs.«175783_g62380105007505_cont_9to1_m_337_7_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the softmax-weighted sum of the values in their result arrays: the kernel's is the output
    block of its last point, the reference's the last product; at each index both are the same real number. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  obtain ⟨h0, h1, h2⟩ := Cert.Finite.real_of_pre _ _ _ (hpre c)
  choose Kk hK using h0
  choose Vv hV using h1
  choose A hA using h2
  funext i
  obtain ⟨q, e, rfl⟩ : ∃ (q : Fin 1024) (e : Fin 32), i = ix2 q e := ⟨i 0, i 1, eq_ix2 i⟩
  obtain ⟨c', hc'⟩ := Cert.ReferenceIdeal.RefIdx.result_apply (fun q d => A (ix2 q d)) (fun j d => Kk (ix2 j d))
    (fun j e => Vv (ix2 j e)) _ _ _ (fun j d => hK (ix2 j d)) (fun j e => hV (ix2 j e)) (fun q d => hA (ix2 q d)) q e
  refine hc'.trans ?_
  exact (Cert.KernelIdeal.Final.result_apply m c (fun q d => A (ix2 q d)) (fun j d => Kk (ix2 j d))
    (fun j e => Vv (ix2 j e)) (fun q d => hA (ix2 q d)) (fun j d => hK (ix2 j d)) (fun j e => hV (ix2 j e)) q e c').symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
